-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 12
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Pieces.lean ====
/-
  What one run of the body leaves behind, in each of its three control cases, as the body's stored values.

  The grid's innermost axis runs over the eight blocks along k. At the first block (case A) the body zeroes the
  accumulator and then accumulates into it; at blocks 1…6 (case B) it accumulates into what the block before left; at
  the last block (case C) it accumulates and then writes accumulator + bias into the output block. So, with x_blk,
  w_blk, bias_blk the three input blocks and `prev` the accumulator as the point before left it:

      accumulator after case A = accumulate x_blk 0 w_blk
      accumulator after case B = accumulate x_blk prev w_blk
      accumulator after case C = accumulate x_blk prev w_blk
      output block after case C = addBias (accumulate x_blk prev w_blk) bias_blk.

  Each store covers its whole buffer, so what a buffer holds afterwards is the last stored value, and a load of the
  whole buffer after a whole store reads that value. Stated for any interpretation of the floats.
-/
import proofs.«140033_j68702296867424_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Case A: the accumulator ends at one accumulation step from the zero block. -/
theorem scratch_A (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i) (x0 : Vec F S1024x512 .f32) (x1 : Vec F S2048x512 .bf16) (x2 : Vec F S1x2048 .f32) :
    sout0_A_0 c i arg3 harg3 arg4 harg4 arg5 harg5 arg6 harg6 arg7 harg7 hc0 hc1 x0 x1 x2 = k0_pay2 x0 (k0_pay1 (F := F)) x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread, View.ld_unit_zero (S := S1024x512) hz, View.ld_unit_zero (S := S1024x2048) hz, View.ld_unit_zero (S := S2048x512) hz, View.ld_unit_zero (S := S1x2048) hz]

/-- Case B: the accumulator ends at one accumulation step from what it held. -/
theorem scratch_B (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i) (x0 : Vec F S1024x512 .f32) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread, View.ld_unit_zero (S := S1024x512) hz, View.ld_unit_zero (S := S1024x2048) hz, View.ld_unit_zero (S := S2048x512) hz, View.ld_unit_zero (S := S1x2048) hz]

/-- Case C: the accumulator, likewise. -/
theorem scratch_C (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x512 .f32) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x2048) hz, View.ld_unit_zero (S := S2048x512) hz, View.ld_unit_zero (S := S1x2048) hz]

/-- Case C: the output block ends at the accumulated value plus the bias row. -/
theorem out_C (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x512 .f32) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 x0 xs0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x2048) _ hz]
  simp only [View.readAt_eq_ld, harg3.read_unread, harg4.read_unread, harg5.read_unread, harg7.read_unread, View.ld_unit_zero (S := S1024x512) hz, View.ld_unit_zero (S := S1024x2048) hz, View.ld_unit_zero (S := S2048x512) hz, View.ld_unit_zero (S := S1x2048) hz]

end Cert.KernelIdeal.Pieces

end
-- ==== Proof.Payload.lean ====
/-
  The body's three stored values, read at an index over the extended reals.

  The body keeps a [1024, 2048] accumulator. At the first block along k it stores zero; at every block it stores
  accumulator + x_blk · w_blkᵀ, where x_blk is a [1024, 512] block of x and w_blk a [2048, 512] block of the folded
  weight, contracted along their second axes; at the last block it stores accumulator + bias row. At (p, q):

      zero            ↦ 0
      accumulate      ↦ acc[p, q] + Σ_{kk < 512} x_blk[p, kk] · w_blk[q, kk]
      add the bias    ↦ v[p, q] + bias_blk[0, q].

  Rounding x to bf16 before the product is the identity on the extended reals.
-/
import proofs.«140033_j68702296867424_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-! ## The block product's operand indices: output (p, q) and contraction index kk read x_blk at (p, kk), w_blk at (q, kk) -/

theorem lhs_0 (i : S1024x2048.Idx) (q : dot_S1024x512_S2048x512_S1024x2048_1_1_0_0_n_n.contr.Idx) : (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_1 (i : S1024x2048.Idx) (q : dot_S1024x512_S2048x512_S1024x2048_1_1_0_0_n_n.contr.Idx) : (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_0 (i : S1024x2048.Idx) (q : dot_S1024x512_S2048x512_S1024x2048_1_1_0_0_n_n.contr.Idx) : (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_1 (i : S1024x2048.Idx) (q : dot_S1024x512_S2048x512_S1024x2048_1_1_0_0_n_n.contr.Idx) : (dot_S1024x512_S2048x512_S1024x2048_1_1_0_0_n_n.rhsIdx i q 1).val = (q ⟨0, by decide⟩).val :=
  dot_S1024x512_S2048x512_S1024x2048_1_1_0_0_n_n.rhsIdx_val_of_single rfl i q

/-- The block product into a zero accumulator, at (p, q): the sum over the 512 shared coordinates. -/
theorem blockDot_apply (x : FVec Ideal S1024x512 .bf16) (w : FVec Ideal S2048x512 .bf16) (p : Fin 1024) (q : Fin 2048) :
    FloatOps.matmul dot_S1024x512_S2048x512_S1024x2048_1_1_0_0_n_n none x w (constant (F := Ideal) S1024x2048 .f32 0x00000000#32) (ix2 p q)
      = ∑ kk : Fin 512, x (ix2 p kk) * w (ix2 q kk) := by
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The product of an x block and a weight block at (p, q): the sum over their 512 shared coordinates. -/
def blockProd (x : Vec Ideal S1024x512 .f32) (w : Vec Ideal S2048x512 .bf16) (p : Fin 1024) (q : Fin 2048) : EReal :=
  ∑ kk : Fin 512, x (ix2 p kk) * w (ix2 q kk)

/-- The zero block. -/
theorem zero_apply (j : S1024x2048.Idx) : (k0_pay1 (F := Ideal)) j = 0 := by
  unfold k0_pay1
  rw [shapeCast_self]
  exact Ideal.ofBits_zero_f32

/-- One accumulation step at (p, q). -/
theorem accumulate_apply (x : Vec Ideal S1024x512 .f32) (acc : Vec Ideal S1024x2048 .f32) (w : Vec Ideal S2048x512 .bf16)
    (p : Fin 1024) (q : Fin 2048) :
    k0_pay2 x acc w (ix2 p q) = acc (ix2 p q) + blockProd x w p q := by
  unfold k0_pay2
  simp only [shapeCast_self]
  exact congrArg (acc (ix2 p q) + ·) (blockDot_apply x w p q)

/-- The last step at (p, q): the bias row added to every row. -/
theorem addBias_apply (v : Vec Ideal S1024x2048 .f32) (b : Vec Ideal S1x2048 .f32) (p : Fin 1024) (q : Fin 2048) :
    k0_pay3 v b (ix2 p q) = v (ix2 p q) + b (ix2 (0 : Fin 1) q) := by
  unfold k0_pay3
  simp only [shapeCast_self]
  exact congrArg (v (ix2 p q) + ·) (broadcastTo_1b_ab_apply b broadcasts_S1x2048_S1024x2048 p q)

end Cert.KernelIdeal.Payload

end
-- ==== Proof.Spec.lean ====
/-
  The result of both programs as ONE function of the argument arrays, over the extended reals, and the two
  algebraic facts that join them.

  With x : [4, 2048, 4096], W : [4096, 4096], A : [16, 4096], B : [4096, 16], bias : [4096], the result at (b, s, o) is

      (Σ_{k < 4096} x[b, s, k] · (W[o, k] + Σ_{r < 16} B[o, r] · A[r, k])) + bias[o].

  One program folds the low-rank product B·A into the weight first and contracts once, in eight blocks of 512 along k;
  the other contracts x against W, adds the bias, contracts x against B·A and adds that. The first form is the
  second by distributing x[b, s, k] over the inner sum, which on the extended reals needs every factor to be a
  real number; cutting a sum of 4096 terms into eight blocks of 512 needs nothing.

  Arrays are read at natural-number coordinates (zero outside their extents), so that every re-indexing below is
  arithmetic on naturals.
-/
import Idealize.ShloMosaic.PureOps.Ideal
import Idealize.ShloMosaic.Lib.ValueIdx

noncomputable section

namespace Cert.LoraSpec

open Idealize.ShloMosaic Idealize.ShloMosaic.ValueIdx Finset

/-! ## Arrays read at natural coordinates -/

/-- A rank-1 array at coordinate `a`; zero outside the array. -/
def at1 {n : Nat} (x : (⟨1, ![n]⟩ : Shape).Idx → EReal) (a : Nat) : EReal :=
  if h : a < n then x (ix1 ⟨a, h⟩) else 0

/-- A rank-2 array at coordinates `(a, b)`; zero outside the array. -/
def at2 {n0 n1 : Nat} (x : (⟨2, ![n0, n1]⟩ : Shape).Idx → EReal) (a b : Nat) : EReal :=
  if h : a < n0 ∧ b < n1 then x (ix2 ⟨a, h.1⟩ ⟨b, h.2⟩) else 0

/-- A rank-3 array at coordinates `(a, b, c)`; zero outside the array. -/
def at3 {n0 n1 n2 : Nat} (x : (⟨3, ![n0, n1, n2]⟩ : Shape).Idx → EReal) (a b c : Nat) : EReal :=
  if h : a < n0 ∧ b < n1 ∧ c < n2 then x (ix3 ⟨a, h.1⟩ ⟨b, h.2.1⟩ ⟨c, h.2.2⟩) else 0

theorem at1_ix1 {n : Nat} (x : (⟨1, ![n]⟩ : Shape).Idx → EReal) (a : Fin n) : x (ix1 a) = at1 x a.val := by
  unfold at1; rw [dif_pos a.isLt]

theorem at2_ix2 {n0 n1 : Nat} (x : (⟨2, ![n0, n1]⟩ : Shape).Idx → EReal) (a : Fin n0) (b : Fin n1) :
    x (ix2 a b) = at2 x a.val b.val := by
  unfold at2; rw [dif_pos ⟨a.isLt, b.isLt⟩]

theorem at3_ix3 {n0 n1 n2 : Nat} (x : (⟨3, ![n0, n1, n2]⟩ : Shape).Idx → EReal) (a : Fin n0) (b : Fin n1) (c : Fin n2) :
    x (ix3 a b c) = at3 x a.val b.val c.val := by
  unfold at3; rw [dif_pos ⟨a.isLt, b.isLt, c.isLt⟩]

/-- An extended real that is a real number. -/
def IsReal (x : EReal) : Prop := ∃ r : ℝ, x = (r : EReal)

theorem isReal_zero : IsReal 0 := ⟨0, EReal.coe_zero.symm⟩

theorem at1_real {n : Nat} {x : (⟨1, ![n]⟩ : Shape).Idx → EReal} (hx : ∀ i, IsReal (x i)) (a : Nat) : IsReal (at1 x a) := by
  unfold at1; split
  · exact hx _
  · exact isReal_zero

theorem at2_real {n0 n1 : Nat} {x : (⟨2, ![n0, n1]⟩ : Shape).Idx → EReal} (hx : ∀ i, IsReal (x i)) (a b : Nat) :
    IsReal (at2 x a b) := by
  unfold at2; split
  · exact hx _
  · exact isReal_zero

theorem at3_real {n0 n1 n2 : Nat} {x : (⟨3, ![n0, n1, n2]⟩ : Shape).Idx → EReal} (hx : ∀ i, IsReal (x i)) (a b c : Nat) :
    IsReal (at3 x a b c) := by
  unfold at3; split
  · exact hx _
  · exact isReal_zero

/-! ## The result -/

/-- The result array: at `(b, s, o)`, the contraction over `k` of `x[b, s, k]` against the weight with the low-rank
    product folded in, plus the bias. -/
def result (X : (⟨3, ![4, 2048, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨1, ![4096]⟩ : Shape).Idx → EReal) : (⟨3, ![4, 2048, 4096]⟩ : Shape).Idx → EReal := fun i =>
  (∑ k ∈ range 4096, at3 X (i 0).val (i 1).val k * (at2 W (i 2).val k + ∑ r ∈ range 16, at2 B (i 2).val r * at2 A r k))
    + at1 bias (i 2).val

/-! ## A sum cut into equal blocks -/

/-- A sum over `b · a` consecutive naturals is the sum over `a` blocks of the sums over the `b` terms of each block: in a
    commutative monoid, so on the extended reals with no side condition. -/
theorem sum_blocks {M : Type*} [AddCommMonoid M] (f : Nat → M) (b : Nat) :
    ∀ a : Nat, ∑ k ∈ range (b * a), f k = ∑ s ∈ range a, ∑ j ∈ range b, f (b * s + j)
  | 0 => by simp
  | a + 1 => by
    rw [Nat.mul_succ, sum_range_add, sum_blocks f b a, sum_range_succ]

/-! ## The flattened result, block by block

Before its last reshape the result is a [8192, 4096] array over the flattened x [8192, 4096] (row 2048·b + s), the
folded weight [4096, 4096] and the bias as a row [1, 4096]. -/

/-- Block `s` (of eight, 512 wide) of the contraction along k, for output row `r` and column `o`. -/
def blockTerm (X : (⟨2, ![8192, 4096]⟩ : Shape).Idx → EReal) (E : (⟨2, ![4096, 4096]⟩ : Shape).Idx → EReal)
    (r o s : Nat) : EReal :=
  ∑ kk ∈ range 512, at2 X r (512 * s + kk) * at2 E o (512 * s + kk)

/-- The flattened result at `(r, o)`: the whole contraction along k, plus the bias at `o`. -/
def flat (X : (⟨2, ![8192, 4096]⟩ : Shape).Idx → EReal) (E : (⟨2, ![4096, 4096]⟩ : Shape).Idx → EReal)
    (Bz : (⟨2, ![1, 4096]⟩ : Shape).Idx → EReal) : (⟨2, ![8192, 4096]⟩ : Shape).Idx → EReal := fun i =>
  (∑ k ∈ range 4096, at2 X (i 0).val k * at2 E (i 1).val k) + at2 Bz 0 (i 1).val

/-- The eight blocks' contributions add up to the whole contraction. -/
theorem sum_blockTerm (X : (⟨2, ![8192, 4096]⟩ : Shape).Idx → EReal) (E : (⟨2, ![4096, 4096]⟩ : Shape).Idx → EReal)
    (r o : Nat) : ∑ s ∈ range 8, blockTerm X E r o s = ∑ k ∈ range 4096, at2 X r k * at2 E o k := by
  unfold blockTerm
  exact (sum_blocks (fun k => at2 X r k * at2 E o k) 512 8).symm

/-! ## Distributing a real factor over a sum of reals -/

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [sum_insert ha, sum_insert ha, EReal.coe_add, ih]

/-- `x · (w + d) = x · w + x · d` when all three are real numbers (it fails on the extended reals in general: with `x < 0`,
    `w = +∞`, `d = -∞` the left side is `+∞` and the right side `-∞`). -/
theorem mul_add_of_real {x w d : EReal} (hx : IsReal x) (hw : IsReal w) (hd : IsReal d) : x * (w + d) = x * w + x * d := by
  obtain ⟨x, rfl⟩ := hx; obtain ⟨w, rfl⟩ := hw; obtain ⟨d, rfl⟩ := hd
  rw [← EReal.coe_add, ← EReal.coe_mul, mul_add, EReal.coe_add, EReal.coe_mul, EReal.coe_mul]

/-- A finite sum of products of real numbers is a real number. -/
theorem sum_mul_real {ι : Type*} (s : Finset ι) {f g : ι → EReal} (hf : ∀ i, IsReal (f i)) (hg : ∀ i, IsReal (g i)) :
    IsReal (∑ i ∈ s, f i * g i) := by
  choose f' hf' using hf
  choose g' hg' using hg
  refine ⟨∑ i ∈ s, f' i * g' i, ?_⟩
  rw [coe_sum]
  exact sum_congr rfl fun i _ => by rw [hf', hg', EReal.coe_mul]

/-- THE LAW that joins the two programs. For real `x k`, `w k`, `b r`, `a r k` (and any `β`): contracting `x` against
    `w + b·a` and adding `β` is contracting `x` against `w`, adding `β`, and adding the contraction of `x` against `b·a`. -/
theorem fold_law (n p : Nat) (x w b : Nat → EReal) (a : Nat → Nat → EReal) (β : EReal)
    (hx : ∀ k, IsReal (x k)) (hw : ∀ k, IsReal (w k)) (hb : ∀ r, IsReal (b r)) (ha : ∀ r k, IsReal (a r k)) :
    (∑ k ∈ range n, x k * (w k + ∑ r ∈ range p, b r * a r k)) + β
      = ((∑ k ∈ range n, x k * w k) + β) + ∑ k ∈ range n, x k * ∑ r ∈ range p, b r * a r k := by
  have hd : ∀ k, IsReal (∑ r ∈ range p, b r * a r k) := fun k => sum_mul_real _ hb fun r => ha r k
  rw [sum_congr rfl fun k _ => mul_add_of_real (hx k) (hw k) (hd k), sum_add_distrib]
  exact add_right_comm _ _ _

end Cert.LoraSpec

end
-- ==== Proof.Blocks.lean ====
/-
  Where each window's block sits in its array.

  The grid is (i, j, k) ∈ 8 × 2 × 8 in row-major order, so point t has i = t / 16, j = (t / 8) % 2, k = t % 8. The
  x window's [1024, 512] block at t is block (i, k) of the flattened x; the weight window's [2048, 512] block is block
  (j, k) of the folded weight; the bias window's [1, 2048] block is block (0, j) of the bias row; the output window's
  [1024, 2048] block is block (i, j) of the output. A block's element (u, v) sits in its array at
  (block row · rows per block + u, block column · columns per block + v).

  The three arrays the input windows read are kept as they stand when the region is entered; what they are in terms
  of the arguments is read elsewhere.
-/
import proofs.«140033_j68702296867424_2_alg».proof.Proof.Gen.KernelIdeal.Frame
import proofs.«140033_j68702296867424_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.LoraSpec
open Idealize.ShloMosaic Idealize.ShloMosaic.TcCoe Idealize.ShloMosaic.ValueIdx Idealize.SL.Sem

variable (m : (ℓ : Loc nD τ sig) → Buf (Elt Ideal) ℓ)

/-- The printed index maps as arithmetic on the point's number, decided once over the 128 points. -/
theorem idx_facts : ∀ t : Fin cfg0.N,
    win0_0.index t (0 : Fin 2) = t.val / 16 ∧ win0_0.index t (1 : Fin 2) = t.val % 8
    ∧ win0_1.index t (0 : Fin 2) = (t.val / 8) % 2 ∧ win0_1.index t (1 : Fin 2) = t.val % 8
    ∧ win0_2.index t (0 : Fin 2) = 0 ∧ win0_2.index t (1 : Fin 2) = (t.val / 8) % 2
    ∧ win0_3.index t (0 : Fin 2) = t.val / 16 ∧ win0_3.index t (1 : Fin 2) = (t.val / 8) % 2 :=
  (by decide +kernel : ∀ t : Fin grid0.N, _)

/-- The x block at point t, at (p, kk): the flattened x at row 1024·i + p, column 512·k + kk. -/
theorem xblk_apply (c : Dev nD) (t : Fin cfg0.N) (p : Fin 1024) (kk : Fin 512) :
    (iblk m c 0 t : Vec Ideal S1024x512 .f32) (ix2 p kk)
      = at2 (V m c main_v3 : S8192x4096.Idx → EReal) (1024 * (t.val / 16) + p.val) (512 * (t.val % 8) + kk.val) := by
  have hN : t.val < 128 := lt_of_lt_of_eq t.isLt (show cfg0.N = 128 from N_0)
  obtain ⟨e0, e1, -⟩ := idx_facts t
  have hp := p.isLt
  have hk := kk.isLt
  unfold at2
  rw [dif_pos ⟨by omega, by omega⟩]
  show V m c main_v3 (((cfg0.win 0).blk t).view.emb (ix2 p kk)) = V m c main_v3 _
  refine congrArg (V m c main_v3) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 512 + 1 * kk.val = 512 * (t.val % 8) + kk.val; rw [e1]; omega

/-- The weight block at point t, at (q, kk): the folded weight at row 2048·j + q, column 512·k + kk. -/
theorem wblk_apply (c : Dev nD) (t : Fin cfg0.N) (q : Fin 2048) (kk : Fin 512) :
    (iblk m c 1 t : Vec Ideal S2048x512 .bf16) (ix2 q kk)
      = at2 (V m c main_v2 : S4096x4096.Idx → EReal) (2048 * (t.val / 8 % 2) + q.val) (512 * (t.val % 8) + kk.val) := by
  have hN : t.val < 128 := lt_of_lt_of_eq t.isLt (show cfg0.N = 128 from N_0)
  obtain ⟨-, -, e0, e1, -⟩ := idx_facts t
  have hq := q.isLt
  have hk := kk.isLt
  unfold at2
  rw [dif_pos ⟨by omega, by omega⟩]
  show V m c main_v2 (((cfg0.win 1).blk t).view.emb (ix2 q kk)) = V m c main_v2 _
  refine congrArg (V m c main_v2) (funext fun a => Fin.ext ?_)
  match a with
  | ⟨0, _⟩ => show win0_1.index t (0 : Fin 2) * 2048 + 1 * q.val = 2048 * (t.val / 8 % 2) + q.val; rw [e0]; omega
  | ⟨1, _⟩ => show win0_1.index t (1 : Fin 2) * 512 + 1 * kk.val = 512 * (t.val % 8) + kk.val; rw [e1]; omega

/-- The bias block at point t, at (0, q): the bias row at column 2048·j + q. -/
theorem bblk_apply (c : Dev nD) (t : Fin cfg0.N) (q : Fin 2048) :
    (iblk m c 2 t : Vec Ideal S1x2048 .f32) (ix2 (0 : Fin 1) q)
      = at2 (V m c main_v4 : S1x4096.Idx → EReal) 0 (2048 * (t.val / 8 % 2) + q.val) := by
  have hN : t.val < 128 := lt_of_lt_of_eq t.isLt (show cfg0.N = 128 from N_0)
  obtain ⟨-, -, -, -, e0, e1, -⟩ := idx_facts t
  have hq := q.isLt
  unfold at2
  rw [dif_pos ⟨by omega, by omega⟩]
  show V m c main_v4 (((cfg0.win 2).blk t).view.emb (ix2 (0 : Fin 1) q)) = V m c main_v4 _
  refine congrArg (V m c main_v4) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = 2048 * (t.val / 8 % 2) + q.val; rw [e1]; omega

end Cert.KernelIdeal.Blocks

end
-- ==== Proof.Accum.lean ====
/-
  The accumulator across the grid.

  Point t = 16·i + 8·j + k works on output block (i, j) and block k along the contraction. The accumulator after
  point t holds, at (p, q), the sum over the blocks 0 … k of their contributions to output row 1024·i + p and column
  2048·j + q: it is reset to the first contribution at k = 0 and grows by one contribution at each later point of
  the same (i, j). At k = 7 the output block receives that sum — the whole contraction — plus the bias.

  By induction on the point, never by listing the 128 points.
-/
import proofs.«140033_j68702296867424_2_alg».proof.Proof.Pieces
import proofs.«140033_j68702296867424_2_alg».proof.Proof.Payload
import proofs.«140033_j68702296867424_2_alg».proof.Proof.Blocks

noncomputable section

namespace Cert.KernelIdeal.Accum

open Cert.KernelIdeal Cert.KernelIdeal.Gen Cert.LoraSpec Cert.KernelIdeal.Blocks
open Idealize.ShloMosaic Idealize.ShloMosaic.TcCoe Idealize.ShloMosaic.ValueIdx Idealize.SL.Sem Finset

variable (m : (ℓ : Loc nD τ sig) → Buf (Elt Ideal) ℓ)

/-- The product of the x block and the weight block of point t, at (p, q), is block k's contribution to output row
    1024·i + p and column 2048·j + q. -/
theorem step_term (c : Dev nD) (t : Fin cfg0.N) (p : Fin 1024) (q : Fin 2048) :
    Payload.blockProd (iblk m c 0 t) (iblk m c 1 t) p q = blockTerm (V m c main_v3 : S8192x4096.Idx → EReal) (V m c main_v2 : S4096x4096.Idx → EReal) (1024 * (t.val / 16) + p.val) (2048 * (t.val / 8 % 2) + q.val) (t.val % 8) := by
  unfold Payload.blockProd blockTerm
  rw [← Fin.sum_univ_eq_sum_range (fun kk => at2 (V m c main_v3 : S8192x4096.Idx → EReal) (1024 * (t.val / 16) + p.val) (512 * (t.val % 8) + kk)
    * at2 (V m c main_v2 : S4096x4096.Idx → EReal) (2048 * (t.val / 8 % 2) + q.val) (512 * (t.val % 8) + kk)) 512]
  exact Finset.sum_congr rfl fun kk _ => by rw [xblk_apply, wblk_apply]

/-- At a first block (k = 0) the accumulator ends at that block's contribution. -/
theorem scratch_first (c : Dev nD) (t : Fin cfg0.N) (h0 : t.val % 8 = 0) (h1 : ¬t.val % 8 = 7) (p : Fin 1024) (q : Fin 2048) :
    (outsAt0 m c t.val t.isLt).2 (ix2 p q) = blockTerm (V m c main_v3 : S8192x4096.Idx → EReal) (V m c main_v2 : S4096x4096.Idx → EReal) (1024 * (t.val / 16) + p.val) (2048 * (t.val / 8 % 2) + q.val) (t.val % 8) := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 p q)).trans ?_
  refine (Payload.accumulate_apply (iblk m c 0 t) (k0_pay1 (F := Ideal)) (iblk m c 1 t) p q).trans ?_
  rw [Payload.zero_apply, zero_add]
  exact step_term m c t p q

/-- At a middle block (0 < k < 7) the accumulator grows by that block's contribution. -/
theorem scratch_middle (c : Dev nD) (t : Fin cfg0.N) (h0 : ¬t.val % 8 = 0) (h1 : ¬t.val % 8 = 7) (p : Fin 1024) (q : Fin 2048) :
    (outsAt0 m c t.val t.isLt).2 (ix2 p q) = (outsAt0 m c (t.val - 1) (Nat.lt_of_le_of_lt (Nat.sub_le _ _) t.isLt)).2 (ix2 p q) + blockTerm (V m c main_v3 : S8192x4096.Idx → EReal) (V m c main_v2 : S4096x4096.Idx → EReal) (1024 * (t.val / 16) + p.val) (2048 * (t.val / 8 % 2) + q.val) (t.val % 8) := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2) (ix2 p q)).trans ?_
  refine (Payload.accumulate_apply (iblk m c 0 t) (outsAt0 m c (t.val - 1) (Nat.lt_of_le_of_lt (Nat.sub_le _ _) t.isLt)).2 (iblk m c 1 t) p q).trans ?_
  exact congrArg ((outsAt0 m c (t.val - 1) (Nat.lt_of_le_of_lt (Nat.sub_le _ _) t.isLt)).2 (ix2 p q) + ·) (step_term m c t p q)

/-- At a last block (k = 7) the accumulator grows likewise, -/
theorem scratch_last (c : Dev nD) (t : Fin cfg0.N) (h0 : ¬t.val % 8 = 0) (h1 : t.val % 8 = 7) (p : Fin 1024) (q : Fin 2048) :
    (outsAt0 m c t.val t.isLt).2 (ix2 p q) = (outsAt0 m c (t.val - 1) (Nat.lt_of_le_of_lt (Nat.sub_le _ _) t.isLt)).2 (ix2 p q) + blockTerm (V m c main_v3 : S8192x4096.Idx → EReal) (V m c main_v2 : S4096x4096.Idx → EReal) (1024 * (t.val / 16) + p.val) (2048 * (t.val / 8 % 2) + q.val) (t.val % 8) := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2) (ix2 p q)).trans ?_
  refine (Payload.accumulate_apply (iblk m c 0 t) (outsAt0 m c (t.val - 1) (Nat.lt_of_le_of_lt (Nat.sub_le _ _) t.isLt)).2 (iblk m c 1 t) p q).trans ?_
  exact congrArg ((outsAt0 m c (t.val - 1) (Nat.lt_of_le_of_lt (Nat.sub_le _ _) t.isLt)).2 (ix2 p q) + ·) (step_term m c t p q)

/-- and the output block receives the grown accumulator plus the bias at column 2048·j + q. -/
theorem out_last (c : Dev nD) (t : Fin cfg0.N) (h0 : ¬t.val % 8 = 0) (h1 : t.val % 8 = 7) (p : Fin 1024) (q : Fin 2048) :
    (outsAt0 m c t.val t.isLt).1 (ix2 p q)
      = ((outsAt0 m c (t.val - 1) (Nat.lt_of_le_of_lt (Nat.sub_le _ _) t.isLt)).2 (ix2 p q) + blockTerm (V m c main_v3 : S8192x4096.Idx → EReal) (V m c main_v2 : S4096x4096.Idx → EReal) (1024 * (t.val / 16) + p.val) (2048 * (t.val / 8 % 2) + q.val) (t.val % 8)) + at2 (V m c main_v4 : S1x4096.Idx → EReal) 0 (2048 * (t.val / 8 % 2) + q.val) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2) (ix2 p q)).trans ?_
  refine (Payload.addBias_apply (k0_pay2 (iblk m c 0 t) (outsAt0 m c (t.val - 1) (Nat.lt_of_le_of_lt (Nat.sub_le _ _) t.isLt)).2 (iblk m c 1 t)) (iblk m c 2 t) p q).trans ?_
  rw [bblk_apply]
  refine congrArg (· + at2 (V m c main_v4 : S1x4096.Idx → EReal) 0 (2048 * (t.val / 8 % 2) + q.val)) ?_
  refine (Payload.accumulate_apply (iblk m c 0 t) (outsAt0 m c (t.val - 1) (Nat.lt_of_le_of_lt (Nat.sub_le _ _) t.isLt)).2 (iblk m c 1 t) p q).trans ?_
  exact congrArg ((outsAt0 m c (t.val - 1) (Nat.lt_of_le_of_lt (Nat.sub_le _ _) t.isLt)).2 (ix2 p q) + ·) (step_term m c t p q)

/-- THE RUNNING SUM: after point n the accumulator holds the contributions of blocks 0 … n % 8. -/
theorem acc_eq (c : Dev nD) : ∀ (n : Nat) (hn : n < cfg0.N) (p : Fin 1024) (q : Fin 2048),
    (outsAt0 m c n hn).2 (ix2 p q) = ∑ s ∈ range (n % 8 + 1), blockTerm (V m c main_v3 : S8192x4096.Idx → EReal) (V m c main_v2 : S4096x4096.Idx → EReal) (1024 * (n / 16) + p.val) (2048 * (n / 8 % 2) + q.val) s
  | 0, hn, p, q => by
    refine (scratch_first m c ⟨0, hn⟩ rfl (by show ¬0 % 8 = 7; omega) p q).trans ?_
    exact (sum_range_one _).symm
  | k + 1, hn, p, q => by
    by_cases h0 : (k + 1) % 8 = 0
    · have h1 : ¬(k + 1) % 8 = 7 := by omega
      refine (scratch_first m c ⟨k + 1, hn⟩ h0 h1 p q).trans ?_
      show blockTerm (V m c main_v3 : S8192x4096.Idx → EReal) (V m c main_v2 : S4096x4096.Idx → EReal) (1024 * ((k + 1) / 16) + p.val) (2048 * ((k + 1) / 8 % 2) + q.val) ((k + 1) % 8) = _
      rw [h0]
      exact (sum_range_one _).symm
    · have step : (outsAt0 m c (k + 1) hn).2 (ix2 p q)
          = (outsAt0 m c k (Nat.lt_of_succ_lt hn)).2 (ix2 p q) + blockTerm (V m c main_v3 : S8192x4096.Idx → EReal) (V m c main_v2 : S4096x4096.Idx → EReal) (1024 * ((k + 1) / 16) + p.val) (2048 * ((k + 1) / 8 % 2) + q.val) ((k + 1) % 8) := by
        by_cases h1 : (k + 1) % 8 = 7
        · exact scratch_last m c ⟨k + 1, hn⟩ h0 h1 p q
        · exact scratch_middle m c ⟨k + 1, hn⟩ h0 h1 p q
      rw [step, acc_eq c k (Nat.lt_of_succ_lt hn) p q]
      have e1 : (k + 1) % 8 = k % 8 + 1 := by omega
      have e2 : (k + 1) / 16 = k / 16 := by omega
      have e3 : (k + 1) / 8 % 2 = k / 8 % 2 := by omega
      rw [e1, e2, e3]
      exact (sum_range_succ _ _).symm

/-- THE OUTPUT BLOCK at a last block: the flattened result at (1024·i + p, 2048·j + q). -/
theorem out_eq (c : Dev nD) (t : Fin cfg0.N) (h7 : t.val % 8 = 7) (p : Fin 1024) (q : Fin 2048)
    (hr : 1024 * (t.val / 16) + p.val < 8192) (ho : 2048 * (t.val / 8 % 2) + q.val < 4096) :
    (outsAt0 m c t.val t.isLt).1 (ix2 p q)
      = flat (V m c main_v3 : S8192x4096.Idx → EReal) (V m c main_v2 : S4096x4096.Idx → EReal) (V m c main_v4 : S1x4096.Idx → EReal) (ix2 ⟨1024 * (t.val / 16) + p.val, hr⟩ ⟨2048 * (t.val / 8 % 2) + q.val, ho⟩) := by
  have h0 : ¬t.val % 8 = 0 := by omega
  rw [out_last m c t h0 h7 p q, acc_eq m c (t.val - 1) _ p q]
  have e1 : (t.val - 1) % 8 + 1 = 7 := by omega
  have e2 : (t.val - 1) / 16 = t.val / 16 := by omega
  have e3 : (t.val - 1) / 8 % 2 = t.val / 8 % 2 := by omega
  rw [e1, e2, e3, h7]
  show _ = (∑ k ∈ range 4096, at2 (V m c main_v3 : S8192x4096.Idx → EReal) (1024 * (t.val / 16) + p.val) k * at2 (V m c main_v2 : S4096x4096.Idx → EReal) (2048 * (t.val / 8 % 2) + q.val) k)
    + at2 (V m c main_v4 : S1x4096.Idx → EReal) 0 (2048 * (t.val / 8 % 2) + q.val)
  refine congrArg (· + at2 (V m c main_v4 : S1x4096.Idx → EReal) 0 (2048 * (t.val / 8 % 2) + q.val)) ?_
  exact (sum_range_succ _ 7).symm.trans (sum_blockTerm _ _ _ _)

end Cert.KernelIdeal.Accum

end
-- ==== Proof.Host.lean ====
/-
  The three arrays the kernel's input windows read, in terms of the arguments.

  Before the kernel runs, the program flattens x from [4, 2048, 4096] to [8192, 4096] (row 2048·b + s), folds the
  low-rank product into the weight, W[o, k] + Σ_{r < 16} B[o, r] · A[r, k] (rounded to bf16, which is the identity on
  the extended reals), and views the bias as a row [1, 4096]. With these, the flattened result at (2048·b + s, o) is the
  result at (b, s, o).
-/
import proofs.«140033_j68702296867424_2_alg».proof.Proof.Gen.KernelIdeal.Frame
import proofs.«140033_j68702296867424_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Host

open Cert.KernelIdeal Cert.KernelIdeal.Gen Cert.LoraSpec
open Idealize.ShloMosaic Idealize.ShloMosaic.TcCoe Idealize.ShloMosaic.ValueIdx Idealize.SL.Sem Idealize.ShloMosaic.StableHlo Finset

variable (m : (ℓ : Loc nD τ sig) → Buf (Elt Ideal) ℓ)

/-! ## The argument arrays -/

abbrev argX (c : Dev nD) : FVec Ideal S4x2048x4096 .f32 := m ((c : Thread nD τ).loc main_arg0)
abbrev argW (c : Dev nD) : FVec Ideal S4096x4096 .f32 := m ((c : Thread nD τ).loc main_arg1)
abbrev argA (c : Dev nD) : FVec Ideal S16x4096 .f32 := m ((c : Thread nD τ).loc main_arg2)
abbrev argB (c : Dev nD) : FVec Ideal S4096x16 .f32 := m ((c : Thread nD τ).loc main_arg3)
abbrev argBias (c : Dev nD) : FVec Ideal S4096 .f32 := m ((c : Thread nD τ).loc main_arg4)

/-! ## What the host operations before the kernel leave -/

theorem flatX_eq (c : Dev nD) : (V m c main_v3 : S8192x4096.Idx → EReal)
    = shapeCast S8192x4096 (argX m c) shapeCasts_S4x2048x4096_S8192x4096 := by
  show StableHlo.after hostOps0 (fun b => m (c, b)) (Proc.devRef .tc main_v3) = _
  after_results
  rfl

theorem biasRow_eq (c : Dev nD) : (V m c main_v4 : S1x4096.Idx → EReal)
    = shapeCast S1x4096 (argBias m c) shapeCasts_S4096_S1x4096 := by
  show StableHlo.after hostOps0 (fun b => m (c, b)) (Proc.devRef .tc main_v4) = _
  after_results
  rfl

theorem folded_eq (c : Dev nD) : (V m c main_v2 : S4096x4096.Idx → EReal)
    = truncf (F := Ideal) .bf16 (addf (F := Ideal) (argW m c) (Host.dotGeneral (F := Ideal) dot_S4096x16_S16x4096_S4096x4096_1_0_0_1_n_n none (argB m c) (argA m c))) bitsLt_bf16_f32 := by
  show StableHlo.after hostOps0 (fun b => m (c, b)) (Proc.devRef .tc main_v2) = _
  after_results
  try rfl

/-! ## The low-rank product at an index -/

theorem lhs_0 (i : S4096x4096.Idx) (q : dot_S4096x16_S16x4096_S4096x4096_1_0_0_1_n_n.contr.Idx) : (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem lhs_1 (i : S4096x4096.Idx) (q : dot_S4096x16_S16x4096_S4096x4096_1_0_0_1_n_n.contr.Idx) : (dot_S4096x16_S16x4096_S4096x4096_1_0_0_1_n_n.lhsIdx i q 1).val = (q ⟨0, by decide⟩).val :=
  dot_S4096x16_S16x4096_S4096x4096_1_0_0_1_n_n.lhsIdx_val_of_single rfl i q
theorem rhs_0 (i : S4096x4096.Idx) (q : dot_S4096x16_S16x4096_S4096x4096_1_0_0_1_n_n.contr.Idx) : (dot_S4096x16_S16x4096_S4096x4096_1_0_0_1_n_n.rhsIdx i q 0).val = (q ⟨0, by decide⟩).val :=
  dot_S4096x16_S16x4096_S4096x4096_1_0_0_1_n_n.rhsIdx_val_of_single rfl i q
theorem rhs_1 (i : S4096x4096.Idx) (q : dot_S4096x16_S16x4096_S4096x4096_1_0_0_1_n_n.contr.Idx) : (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- B·A at (o, k): the sum over the sixteen shared coordinates. -/
theorem lowRank_apply (Bm : FVec Ideal S4096x16 .f32) (Am : FVec Ideal S16x4096 .f32) (o k : Fin 4096) :
    Host.dotGeneral (F := Ideal) dot_S4096x16_S16x4096_S4096x4096_1_0_0_1_n_n none Bm Am (ix2 o k) = ∑ r : Fin 16, Bm (ix2 o r) * Am (ix2 r k) := by
  simp only [Host.dotGeneral]
  rw [Ideal.dotGeneral_apply, ← Equiv.sum_comp (contrEquiv1 dot_S4096x16_S16x4096_S4096x4096_1_0_0_1_n_n 16 rfl rfl).symm]
  refine Finset.sum_congr rfl fun r _ => ?_
  have hr := contrEquiv1_symm_val dot_S4096x16_S16x4096_S4096x4096_1_0_0_1_n_n 16 rfl rfl r
  have el : dot_S4096x16_S16x4096_S4096x4096_1_0_0_1_n_n.lhsIdx (ix2 o k) ((contrEquiv1 dot_S4096x16_S16x4096_S4096x4096_1_0_0_1_n_n 16 rfl rfl).symm r) = ix2 o r := funext fun a => Fin.ext (by
    match a with
    | ⟨0, _⟩ => exact lhs_0 _ _
    | ⟨1, _⟩ => exact (lhs_1 _ _).trans hr)
  have er : dot_S4096x16_S16x4096_S4096x4096_1_0_0_1_n_n.rhsIdx (ix2 o k) ((contrEquiv1 dot_S4096x16_S16x4096_S4096x4096_1_0_0_1_n_n 16 rfl rfl).symm r) = ix2 r k := funext fun a => Fin.ext (by
    match a with
    | ⟨0, _⟩ => exact (rhs_0 _ _).trans hr
    | ⟨1, _⟩ => exact rhs_1 _ _)
  rw [el, er]

/-! ## The three arrays at natural coordinates -/

/-- The flattened x at row 2048·b + s is x at (b, s). -/
theorem flatX_apply (c : Dev nD) (b : Fin 4) (s : Fin 2048) (k : Fin 4096) :
    at2 (V m c main_v3 : S8192x4096.Idx → EReal) (2048 * b.val + s.val) k.val = at3 (argX m c) b.val s.val k.val := by
  have hb := b.isLt
  have hs := s.isLt
  have hr : 2048 * b.val + s.val < 8192 := by omega
  rw [← at3_ix3, show at2 (V m c main_v3 : S8192x4096.Idx → EReal) (2048 * b.val + s.val) k.val = (V m c main_v3 : S8192x4096.Idx → EReal) (ix2 ⟨2048 * b.val + s.val, hr⟩ k) from (at2_ix2 _ ⟨_, hr⟩ k).symm,
    flatX_eq]
  refine shapeCast_apply _ _ _ _ ?_
  show ((⟨3, ![4, 2048, 4096]⟩ : Shape).rowMajor (ix3 b s k)).val = ((⟨2, ![8192, 4096]⟩ : Shape).rowMajor (ix2 ⟨2048 * b.val + s.val, hr⟩ k)).val
  rw [Shape.rowMajor_val_three, Shape.rowMajor_val_two]
  show (b.val * 2048 + s.val) * 4096 + k.val = (2048 * b.val + s.val) * 4096 + k.val
  omega

/-- The bias row at (0, o) is the bias at o. -/
theorem biasRow_apply (c : Dev nD) (o : Fin 4096) : at2 (V m c main_v4 : S1x4096.Idx → EReal) 0 o.val = at1 (argBias m c) o.val := by
  rw [← at1_ix1, show at2 (V m c main_v4 : S1x4096.Idx → EReal) 0 o.val = (V m c main_v4 : S1x4096.Idx → EReal) (ix2 (0 : Fin 1) o) from (at2_ix2 _ (0 : Fin 1) o).symm, biasRow_eq]
  refine shapeCast_apply _ _ _ _ ?_
  show ((⟨1, ![4096]⟩ : Shape).rowMajor (ix1 o)).val = ((⟨2, ![1, 4096]⟩ : Shape).rowMajor (ix2 (0 : Fin 1) o)).val
  rw [Shape.rowMajor_val_one, Shape.rowMajor_val_two]
  show o.val = 0 * 4096 + o.val
  omega

/-- The folded weight at (o, k). -/
theorem folded_apply (c : Dev nD) (o k : Fin 4096) :
    at2 (V m c main_v2 : S4096x4096.Idx → EReal) o.val k.val = at2 (argW m c) o.val k.val + ∑ r ∈ range 16, at2 (argB m c) o.val r * at2 (argA m c) r k.val := by
  rw [← at2_ix2, ← at2_ix2, folded_eq]
  show (argW m c) (ix2 o k) + Host.dotGeneral (F := Ideal) dot_S4096x16_S16x4096_S4096x4096_1_0_0_1_n_n none (argB m c) (argA m c) (ix2 o k) = _
  rw [lowRank_apply]
  refine congrArg ((argW m c) (ix2 o k) + ·) ?_
  rw [← Fin.sum_univ_eq_sum_range (fun r => at2 (argB m c) o.val r * at2 (argA m c) r k.val) 16]
  exact Finset.sum_congr rfl fun r _ => by rw [at2_ix2 (argB m c) o r, at2_ix2 (argA m c) r k]

/-! ## The flattened result is the result -/

theorem flat_eq_result (c : Dev nD) (b : Fin 4) (s : Fin 2048) (o : Fin 4096) (hr : 2048 * b.val + s.val < 8192) :
    flat (V m c main_v3 : S8192x4096.Idx → EReal) (V m c main_v2 : S4096x4096.Idx → EReal) (V m c main_v4 : S1x4096.Idx → EReal) (ix2 ⟨2048 * b.val + s.val, hr⟩ o)
      = result (argX m c) (argW m c) (argA m c) (argB m c) (argBias m c) (ix3 b s o) := by
  show (∑ k ∈ range 4096, at2 (V m c main_v3 : S8192x4096.Idx → EReal) (2048 * b.val + s.val) k * at2 (V m c main_v2 : S4096x4096.Idx → EReal) o.val k) + at2 (V m c main_v4 : S1x4096.Idx → EReal) 0 o.val
    = (∑ k ∈ range 4096, at3 (argX m c) b.val s.val k * (at2 (argW m c) o.val k + ∑ r ∈ range 16, at2 (argB m c) o.val r * at2 (argA m c) r k))
      + at1 (argBias m c) o.val
  rw [biasRow_apply]
  refine congrArg (· + at1 (argBias m c) o.val) ?_
  refine Finset.sum_congr rfl fun k hk => ?_
  have hk' : k < 4096 := Finset.mem_range.mp hk
  rw [flatX_apply m c b s ⟨k, hk'⟩, folded_apply m c o ⟨k, hk'⟩]

end Cert.KernelIdeal.Host

end
-- ==== Proof.Final.lean ====
/-
  From the output blocks to the result array, and the run.

  The output block (i, j) is written back once, after the last block along k (the points t with t % 8 = 7), and holds
  the flattened result on rows 1024·i … 1024·i + 1023 and columns 2048·j … 2048·j + 2047. The sixteen blocks tile the
  [8192, 4096] array: entry (r, o) lies in the block written at point 16·(r / 1024) + 8·(o / 2048) + 7. So after the
  kernel the array is the flattened result everywhere; the last reshape to [4, 2048, 4096] reads it at row
  2048·b + s, which is the result at (b, s, o).
-/
import proofs.«140033_j68702296867424_2_alg».proof.Proof.Accum
import proofs.«140033_j68702296867424_2_alg».proof.Proof.Host

noncomputable section

namespace Cert.KernelIdeal.Final

open Cert.KernelIdeal Cert.KernelIdeal.Gen Cert.LoraSpec Cert.KernelIdeal.Blocks
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- WHAT A FLUSHING POINT WRITES BACK is its block of the flattened result. -/
theorem flushed_eq (c : Dev nD) (t : Fin cfg0.N) (hf : (cfg0.win 3).flush t = true) :
    (dats m 0 c).flushed 3 t = ((cfg0.win 3).blk t).view.read (Elt Ideal) (flat (V m c main_v3 : S8192x4096.Idx → EReal) (V m c main_v2 : S4096x4096.Idx → EReal) (V m c main_v4 : S1x4096.Idx → EReal)) := by
  have h7 : t.val % 8 = 7 := (flush0_3 t).mp hf
  have hN : t.val < 128 := lt_of_lt_of_eq t.isLt (show cfg0.N = 128 from N_0)
  obtain ⟨-, -, -, -, -, -, e0, e1⟩ := idx_facts t
  show (cfg0.win 3).cut (grid0.coords t) ((dats m 0 c).after 3 t) = _
  rw [after0_3]
  funext y
  have hy0 : (y 0).val < 1024 := (y 0).isLt
  have hy1 : (y 1).val < 2048 := (y 1).isLt
  have hl : (cfg0.win 3).cut (grid0.coords t) ((outsAt0 m c t.val t.isLt).1) y
      = (outsAt0 m c t.val t.isLt).1 (ix2 ⟨(y 0).val, hy0⟩ ⟨(y 1).val, hy1⟩) := by
    show (outsAt0 m c t.val t.isLt).1 _ = _
    refine congrArg (outsAt0 m c t.val t.isLt).1 (funext fun a => ?_)
    match a with
    | ⟨0, _⟩ => rfl
    | ⟨1, _⟩ => rfl
  rw [hl, Accum.out_eq m c t h7 ⟨(y 0).val, hy0⟩ ⟨(y 1).val, hy1⟩ (by show 1024 * (t.val / 16) + (y 0).val < 8192; omega)
    (by show 2048 * (t.val / 8 % 2) + (y 1).val < 4096; omega)]
  show (flat (V m c main_v3 : S8192x4096.Idx → EReal) (V m c main_v2 : S4096x4096.Idx → EReal) (V m c main_v4 : S1x4096.Idx → EReal)) _ = (flat (V m c main_v3 : S8192x4096.Idx → EReal) (V m c main_v2 : S4096x4096.Idx → EReal) (V m c main_v4 : S1x4096.Idx → EReal)) (((cfg0.win 3).blk t).view.emb y)
  refine congrArg (flat (V m c main_v3 : S8192x4096.Idx → EReal) (V m c main_v2 : S4096x4096.Idx → EReal) (V m c main_v4 : S1x4096.Idx → EReal)) (funext fun a => Fin.ext ?_)
  match a with
  | ⟨0, _⟩ => show 1024 * (t.val / 16) + (y 0).val = win0_3.index t (0 : Fin 2) * 1024 + 1 * (y 0).val; rw [e0]; omega
  | ⟨1, _⟩ => show 2048 * (t.val / 8 % 2) + (y 1).val = win0_3.index t (1 : Fin 2) * 2048 + 1 * (y 1).val; rw [e1]; omega

/-- An entry of the array is in point t's block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v5).slice (win0_3.rect t)).set ↔ _
  rw [View.set_slice_whole, Rect.mem_set_unit]
  exact Iff.rfl

/-- THE COVER: entry (r, o) lies in the block written back at point 16·(r / 1024) + 8·(o / 2048) + 7. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht⟩ : ∃ t : Fin cfg0.N, t.val = 16 * ((i 0).val / 1024) + 8 * ((i 1).val / 2048) + 7 :=
    ⟨⟨16 * ((i 0).val / 1024) + 8 * ((i 1).val / 2048) + 7, lt_of_lt_of_eq (by omega) (show (128 : Nat) = cfg0.N from N_0.symm)⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 2048 ≤ (i 1).val ∧ (i 1).val < win0_3.index t (1 : Fin 2) * 2048 + 2048
    rw [e1]; omega

/-- THE ARRAY after the kernel: the flattened result. -/
theorem final (c : Dev nD) : (dats m 0 c).arrAt 3 cfg0.N = (flat (V m c main_v3 : S8192x4096.Idx → EReal) (V m c main_v2 : S4096x4096.Idx → EReal) (V m c main_v4 : S1x4096.Idx → EReal)) :=
  (dats m 0 c).arrAt_eq_of_cover 3 (flat (V m c main_v3 : S8192x4096.Idx → EReal) (V m c main_v2 : S4096x4096.Idx → EReal) (V m c main_v4 : S1x4096.Idx → EReal)) (fun t hf => flushed_eq m c t hf) cover

/-- The flattened result, reshaped to [4, 2048, 4096], is the result: (b, s, o) reads row 2048·b + s, column o. -/
theorem reshaped_eq (c : Dev nD) :
    shapeCast S4x2048x4096 (flat (V m c main_v3 : S8192x4096.Idx → EReal) (V m c main_v2 : S4096x4096.Idx → EReal) (V m c main_v4 : S1x4096.Idx → EReal)) shapeCasts_S8192x4096_S4x2048x4096 = (result (Host.argX m c) (Host.argW m c) (Host.argA m c) (Host.argB m c) (Host.argBias m c)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have hr : 2048 * b.val + s.val < 8192 := by omega
  refine (shapeCast_apply _ _ (ix3 b s o) (ix2 ⟨2048 * b.val + s.val, hr⟩ o) ?_).trans (Host.flat_eq_result m c b s o hr)
  show ((⟨2, ![8192, 4096]⟩ : Shape).rowMajor (ix2 ⟨2048 * b.val + s.val, hr⟩ o)).val
    = ((⟨3, ![4, 2048, 4096]⟩ : Shape).rowMajor (ix3 b s o)).val
  rw [Shape.rowMajor_val_two, Shape.rowMajor_val_three]
  show (2048 * b.val + s.val) * 4096 + o.val = (b.val * 2048 + s.val) * 4096 + o.val
  omega

/-- After the kernel the program reshapes its output array; what that leaves is the result. -/
theorem tail_eq (c : Dev nD) :
    Pipeline.afterTail₀ cfgs (dats m) 0 (V0 m) [hostOps1] c main_v6 = (result (Host.argX m c) (Host.argW m c) (Host.argA m c) (Host.argB m c) (Host.argBias m c)) := by
  have hw : Pipeline.withArrays spec0 c (V0 m c) (fun w => (dats m 0 c).arrAt w cfg0.N) (Proc.devRef .tc main_v5) = (flat (V m c main_v3 : S8192x4096.Idx → EReal) (V m c main_v2 : S4096x4096.Idx → EReal) (V m c main_v4 : S1x4096.Idx → EReal)) :=
    (Pipeline.withArrays_arr spec0 launch0.win.arr_inj c _ _ 3).trans (final m c)
  unfold Pipeline.afterTail₀
  show StableHlo.after hostOps1 _ (Proc.devRef .tc main_v6) = _
  after_results
  rw [hw]
  exact reshaped_eq m c

/-- THE RUN: every weakly fair execution terminates with the result array at the result and the arguments unchanged. -/
theorem run : θ_run defs (onTc (τ := τ) (main (F := Ideal))) ⟨m, fun _ => 0, ρ⟩ fun r => ∀ c : Dev nD,
      r.2.mem ((c.tc : Thread nD τ).loc main_v6) = (result (Host.argX m c) (Host.argW m c) (Host.argA m c) (Host.argB m c) (Host.argBias m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Final

end
-- ==== Proof.RefValue.lean ====
/-
  The reference computes the result, when every entry is a real number.

  The reference contracts x against W, adds the bias, contracts x against B·A, and adds the two. At (b, s, o):

      ((Σ_k x[b, s, k] · W[o, k]) + bias[o]) + Σ_k x[b, s, k] · (Σ_r B[o, r] · A[r, k]).

  Distributing x[b, s, k] over W[o, k] + Σ_r B[o, r] · A[r, k] — valid for real factors — makes this the result.
-/
import proofs.«140033_j68702296867424_2_alg».proof.Proof.Gen.ReferenceIdeal.Read
import proofs.«140033_j68702296867424_2_alg».proof.Proof.Spec

noncomputable section

namespace Cert.ReferenceIdeal.RefValue

open Cert.ReferenceIdeal Cert.ReferenceIdeal.Read Cert.LoraSpec
open Idealize.ShloMosaic Idealize.ShloMosaic.ValueIdx Finset

/-- The reference's result term is the result, for arguments whose entries are all real numbers. -/
theorem ref_eq (x0 : FVec Ideal S4x2048x4096 .f32) (x1 : FVec Ideal S4096x4096 .f32) (x2 : FVec Ideal S16x4096 .f32)
    (x3 : FVec Ideal S4096x16 .f32) (x4 : FVec Ideal S4096 .f32)
    (h0 : ∀ i, IsReal (x0 i)) (h1 : ∀ i, IsReal (x1 i)) (h2 : ∀ i, IsReal (x2 i)) (h3 : ∀ i, IsReal (x3 i)) :
    val_main_v6 (F := Ideal) x0 x1 x2 x3 x4 = result x0 x1 x2 x3 x4 := by
  funext i
  obtain ⟨b, s, o, rfl⟩ : ∃ (b : Fin 4) (s : Fin 2048) (o : Fin 4096), i = ix3 b s o := ⟨i 0, i 1, i 2, eq_ix3 i⟩
  -- the operand indices of the three contractions and of the bias broadcast, at (b, s, o)
  have el : ∀ k : Fin 4096, lidx_main_v0 (ix3 b s o) k = ix3 b s k := fun k => funext fun a => by
    match a with
    | ⟨0, _⟩ => rfl
    | ⟨1, _⟩ => rfl
    | ⟨2, _⟩ => rfl
  have er : ∀ k : Fin 4096, ridx_main_v0 (ix3 b s o) k = ix2 o k := fun k => funext fun a => by
    match a with
    | ⟨0, _⟩ => rfl
    | ⟨1, _⟩ => rfl
  have el5 : ∀ k : Fin 4096, lidx_main_v5 (ix3 b s o) k = ix3 b s k := fun k => funext fun a => by
    match a with
    | ⟨0, _⟩ => rfl
    | ⟨1, _⟩ => rfl
    | ⟨2, _⟩ => rfl
  have er5 : ∀ k : Fin 4096, ridx_main_v5 (ix3 b s o) k = ix2 o k := fun k => funext fun a => by
    match a with
    | ⟨0, _⟩ => rfl
    | ⟨1, _⟩ => rfl
  have el4 : ∀ (k : Fin 4096) (r : Fin 16), lidx_main_v4 (ix2 o k) r = ix2 o r := fun k r => funext fun a => by
    match a with
    | ⟨0, _⟩ => rfl
    | ⟨1, _⟩ => rfl
  have er4 : ∀ (k : Fin 4096) (r : Fin 16), ridx_main_v4 (ix2 o k) r = ix2 r k := fun k r => funext fun a => by
    match a with
    | ⟨0, _⟩ => rfl
    | ⟨1, _⟩ => rfl
  have eb : idx_main_v1 (idx_main_v2 (ix3 b s o)) = ix1 o := funext fun a => by
    match a with
    | ⟨0, _⟩ => rfl
  -- x · Wᵀ
  have hA : val_main_v0 (F := Ideal) x0 x1 (ix3 b s o) = ∑ k ∈ range 4096, at3 x0 b.val s.val k * at2 x1 o.val k := by
    rw [val_main_v0_apply, ← Fin.sum_univ_eq_sum_range (fun k => at3 x0 b.val s.val k * at2 x1 o.val k) 4096]
    exact sum_congr rfl fun k _ => by rw [el k, er k, at3_ix3 x0 b s k, at2_ix2 x1 o k]
  -- B · A
  have hD : ∀ k : Fin 4096, val_main_v4 (F := Ideal) x2 x3 (ix2 o k) = ∑ r ∈ range 16, at2 x3 o.val r * at2 x2 r k.val := fun k => by
    rw [val_main_v4_apply, ← Fin.sum_univ_eq_sum_range (fun r => at2 x3 o.val r * at2 x2 r k.val) 16]
    exact sum_congr rfl fun r _ => by rw [el4 k r, er4 k r, at2_ix2 x3 o r, at2_ix2 x2 r k]
  -- x · (B · A)ᵀ
  have hC : val_main_v5 (F := Ideal) x0 x2 x3 (ix3 b s o)
      = ∑ k ∈ range 4096, at3 x0 b.val s.val k * ∑ r ∈ range 16, at2 x3 o.val r * at2 x2 r k := by
    rw [val_main_v5_apply,
      ← Fin.sum_univ_eq_sum_range (fun k => at3 x0 b.val s.val k * ∑ r ∈ range 16, at2 x3 o.val r * at2 x2 r k) 4096]
    exact sum_congr rfl fun k _ => by rw [el5 k, er5 k, hD k, at3_ix3 x0 b s k]
  -- the bias, broadcast
  have hB : val_main_v2 (F := Ideal) x4 (ix3 b s o) = at1 x4 o.val := by
    rw [val_main_v2_apply, val_main_v1_apply, eb, at1_ix1 x4 o]
  rw [val_main_v6_apply, val_main_v3_apply, hA, hB, hC]
  exact (fold_law 4096 16 (fun k => at3 x0 b.val s.val k) (fun k => at2 x1 o.val k) (fun r => at2 x3 o.val r)
    (fun r k => at2 x2 r k) (at1 x4 o.val) (fun k => at3_real h0 _ _ _) (fun k => at2_real h1 _ _) (fun r => at2_real h3 _ _)
    (fun r k => at2_real h2 _ _)).symm

end Cert.ReferenceIdeal.RefValue

end
-- ==== Proof.Finite.lean ====
/-
  The precondition says every entry of every argument is a real number.

  It is stated as one bit: the conjunction over the five arguments of "every entry x has |x| < +∞". On the extended
  reals |x| is max x (-x), and +∞ is the top element, so |x| < +∞ excludes exactly x = +∞ and x = -∞.
-/
import proofs.«140033_j68702296867424_2_alg».proof.Proof.Gen.Pre_finite_inputs
import proofs.«140033_j68702296867424_2_alg».proof.Proof.Spec
import Idealize.ShloMosaic.Lib.ReduceAll
import Idealize.ShloMosaic.Lib.ValueIdx
import Idealize.ShloMosaic.PureOps.Ideal.Laws

noncomputable section

namespace Cert.Finite

open Cert.Pre_finite_inputs Cert.LoraSpec
open Idealize.ShloMosaic Idealize.ShloMosaic.ValueIdx

/-- The scalar shape has one index. -/
instance : Subsingleton S_.Idx := ⟨fun a b => funext fun d => d.elim0⟩

/-- The f32 word of +∞ is the top element. -/
theorem posInf : Ideal.ofBits .f32 0x7F800000#32 = ⊤ := by simp [Ideal.ofBits, Ideal.ieee]

/-- |x| < +∞ means x is a real number. -/
theorem isReal_of_abs_lt_top {x : EReal} (h : max x (-x) < ⊤) : IsReal x := by
  induction x using EReal.rec with
  | bot => simp at h
  | coe r => exact ⟨r, rfl⟩
  | top => simp at h

/-- One entry: where the comparison |x| < +∞ answers 1, the entry is a real number. -/
theorem isReal_of_cmp {s : Shape} (x : FVec Ideal s .f32) (hb : S_.BroadcastsInDim s (![] : Fin 0 → Fin s.rank)) (i : s.Idx)
    (h : cmpf (F := Ideal) .olt (Host.absf x) (broadcastInDim s ![] hb (constant (F := Ideal) S_ .f32 0x7F800000#32)) i = 1#1) :
    IsReal (x i) := by
  have h' : BitVec.ofBool (decide (max (x i) (-(x i)) < Ideal.ofBits .f32 0x7F800000#32)) = 1#1 := h
  rw [posInf] at h'
  refine isReal_of_abs_lt_top ?_
  by_contra hlt
  rw [decide_eq_false hlt] at h'
  exact absurd h' (by decide)

/-- THE PRECONDITION, read: every entry of every argument is a real number. -/
theorem real_of_pre (x0 : FVec Ideal S4x2048x4096 .f32) (x1 : FVec Ideal S4096x4096 .f32) (x2 : FVec Ideal S16x4096 .f32)
    (x3 : FVec Ideal S4096x16 .f32) (x4 : FVec Ideal S4096 .f32)
    (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h1 := congrFun h ix0
  dsimp only [fn, fn_part1] at h1
  obtain ⟨h1234, r4⟩ := IntOp.andi_eq_one.mp h1
  obtain ⟨h123, r3⟩ := IntOp.andi_eq_one.mp h1234
  obtain ⟨h12, r2⟩ := IntOp.andi_eq_one.mp h123
  obtain ⟨r0, r1⟩ := IntOp.andi_eq_one.mp h12
  exact ⟨fun i => isReal_of_cmp x0 _ i (Host.reduce_andi_all _ _ _ _ ix0 r0 i),
    fun i => isReal_of_cmp x1 _ i (Host.reduce_andi_all _ _ _ _ ix0 r1 i),
    fun i => isReal_of_cmp x2 _ i (Host.reduce_andi_all _ _ _ _ ix0 r2 i),
    fun i => isReal_of_cmp x3 _ i (Host.reduce_andi_all _ _ _ _ ix0 r3 i),
    fun i => isReal_of_cmp x4 _ i (Host.reduce_andi_all _ _ _ _ ix0 r4 i)⟩

end Cert.Finite

end
-- ==== Proof.lean ====
/-
  A linear layer with a low-rank update, y = x · Wᵀ + bias + x · (B · A)ᵀ, computed two ways.

  With x : [4, 2048, 4096], W : [4096, 4096], A : [16, 4096], B : [4096, 16], bias : [4096], both programs end with

      y[b, s, o] = (Σ_{k < 4096} x[b, s, k] · (W[o, k] + Σ_{r < 16} B[o, r] · A[r, k])) + bias[o]

  over the extended reals, for arguments whose entries are all real numbers.

  The kernel's program folds B · A into the weight, flattens x to [8192, 4096], and runs a grid of 8 × 2 × 8 points:
  point (i, j, k) multiplies the [1024, 512] block (i, k) of x with the [2048, 512] block (j, k) of the folded weight,
  accumulates the product over k in a buffer it carries from point to point, and after the last k adds the bias and
  writes output block (i, j). The accumulator after block k is the sum of the contributions of blocks 0 … k (an
  induction on the point); the eight contributions are the whole contraction (a sum of 4096 terms cut into eight
  blocks of 512); the sixteen output blocks tile the [8192, 4096] array; the final reshape reads row 2048·b + s. None
  of this needs the entries to be finite: it uses only that addition is associative and commutative.

  The reference contracts x against W, adds the bias, contracts x against B · A and adds that. It equals the form above
  by distributing x[b, s, k] over W[o, k] + Σ_r B[o, r] · A[r, k], which on the extended reals holds for real factors
  and fails at infinities: this is where the precondition — every entry finite — is used.

  Rounding to bf16 is the identity on the extended reals, and the idealized kernel is the kernel's own text read
  there (no operation was rewritten), so the fourth claim is `True`.
-/
import proofs.«140033_j68702296867424_2_alg».proof.Defs
import proofs.«140033_j68702296867424_2_alg».proof.Proof.Gen.Kernel
import proofs.«140033_j68702296867424_2_alg».proof.Proof.Gen.Kernel.Frame
import proofs.«140033_j68702296867424_2_alg».proof.Proof.Gen.KernelIdeal
import proofs.«140033_j68702296867424_2_alg».proof.Proof.Gen.KernelIdeal.Frame
import proofs.«140033_j68702296867424_2_alg».proof.Proof.Gen.ReferenceIdeal
import proofs.«140033_j68702296867424_2_alg».proof.Proof.Gen.Pre_finite_inputs
import proofs.«140033_j68702296867424_2_alg».proof.Proof.Gen.ReferenceIdeal.Run
import proofs.«140033_j68702296867424_2_alg».proof.Proof.Gen.ReferenceIdeal.Read
import proofs.«140033_j68702296867424_2_alg».proof.Proof.Final
import proofs.«140033_j68702296867424_2_alg».proof.Proof.RefValue
import proofs.«140033_j68702296867424_2_alg».proof.Proof.Finite
import Idealize.ShloMosaic.Adequacy
import Idealize.ShloMosaic.Init

noncomputable section

namespace Cert.Proof

open Idealize.ShloMosaic Idealize.SL.Sem Cert.LoraSpec

/-- The kernel's program runs, faults nowhere, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals. -/
theorem preserves : Cert.preserves_Kernel_KernelIdeal := trivial

/-- From memories agreeing on the arguments, whose entries are all finite, both programs end with the result array at
    the same function of the arguments: the kernel's by its run, the reference's by its run and the distributive law. -/
theorem algebraic : Cert.algebraic_KernelIdeal_ReferenceIdeal := by
  intro m ρ m' ρ' hpre hagree
  refine ⟨fun c => result (Cert.KernelIdeal.Host.argX m c) (Cert.KernelIdeal.Host.argW m c) (Cert.KernelIdeal.Host.argA m c)
    (Cert.KernelIdeal.Host.argB m c) (Cert.KernelIdeal.Host.argBias m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1,
    (hagree c).2.2.2.2]
  obtain ⟨h0, h1, h2, h3, -⟩ := Cert.Finite.real_of_pre _ _ _ _ _ (hpre c)
  exact Cert.ReferenceIdeal.RefValue.ref_eq _ _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
